-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S100000x512 : Shape := ⟨2, ![100000, 512]⟩
abbrev S512x256 : Shape := ⟨2, ![512, 256]⟩
abbrev S262144x256 : Shape := ⟨2, ![262144, 256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S262144x256 : S_.BroadcastsInDim S262144x256 (![] : Fin 0 → Fin S262144x256.rank)
  reducesTo_S262144x256_S_d0_1 : S262144x256.ReducesTo [0, 1] S_

variable [Facts]

def fn_part1 {F : FTy → Type} [FloatOps F] (main_arg7 : FVec F S262144x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S262144x256 .f32 := Host.absf main_arg7
  let main_cst_6 : FVec F S_ .f32 := constant S_ .f32 0x7F800000#32
  let main_v20 : FVec F S262144x256 .f32 := broadcastInDim S262144x256 ![] bcast_S_S262144x256 main_cst_6
  let main_v21 : IVec S262144x256 1 := cmpf .olt main_v19 main_v20
  let main_c_7 : IVec S_ 1 := constantI S_ 1 1#1
  let main_v22 : IVec S_ 1 := (fun x v => Host.reduce IntOp.andi x v reducesTo_S262144x256_S_d0_1 h_S_) main_v21 main_c_7
  let main_v23 : IVec S_ 1 := andi main_v18 main_v22
  main_v23

def fn {F : FTy → Type} [FloatOps F] (main_arg0 : IVec S131072 32) (main_arg1 : IVec S131072 32) (main_arg2 : IVec S131072 32) (main_arg3 : FVec F S100000x512 .f32) (main_arg4 : FVec F S100000x512 .f32) (main_arg5 : FVec F S512x256 .f32) (main_arg6 : FVec F S512x256 .f32) (main_arg7 : FVec F S262144x256 .f32) : IVec S_ 1 :=
  let main_v0 : FVec F S100000x512 .f32 := Host.absf main_arg3
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg4
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x256 .f32 := Host.absf main_arg5
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg6
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg7 main_v13 main_v16
-- ==== Kernel.lean ====
abbrev S131072 : Shape := ⟨1, ![131072]⟩
abbrev S100000x512 : Shape := ⟨2, ![100000, 512]⟩
abbrev S512x256 : Shape := ⟨2, ![512, 256]⟩
abbrev S262144x256 : Shape := ⟨2, ![262144, 256]⟩
abbrev S_ : Shape := ⟨0, ![]⟩
abbrev S131072x1 : Shape := ⟨2, ![131072, 1]⟩
abbrev S131072x512 : Shape := ⟨2, ![131072, 512]⟩
abbrev S131072x256 : Shape := ⟨2, ![131072, 256]⟩
abbrev S4096x512 : Shape := ⟨2, ![4096, 512]⟩
abbrev S4096x1 : Shape := ⟨2, ![4096, 1]⟩
abbrev S4096x256 : Shape := ⟨2, ![4096, 256]⟩

abbrev nBuf : Space → Nat
  | .hbm => 62
  | .vmem => 16
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S131072, .i32⟩
  | .hbm, ⟨3, _⟩ => ⟨S100000x512, .f32⟩
  | .hbm, ⟨4, _⟩ => ⟨S100000x512, .f32⟩
  | .hbm, ⟨5, _⟩ => ⟨S512x256, .f32⟩
  | .hbm, ⟨6, _⟩ => ⟨S512x256, .f32⟩
  | .hbm, ⟨7, _⟩ => ⟨S262144x256, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S131072, .i1⟩
  | .hbm, ⟨15, _⟩ => ⟨S131072, .i1⟩
  | .hbm, ⟨16, _⟩ => ⟨S_, .i32⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S_, .i32⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072x512, .f32⟩
  | .hbm, ⟨33, _⟩ => ⟨S131072x512, .bf16⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S131072x1, .i32⟩
  | .hbm, ⟨42, _⟩ => ⟨S131072x512, .f32⟩
  | .hbm, ⟨43, _⟩ => ⟨S131072x512, .bf16⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S131072x1, .i32⟩
  | .hbm, ⟨52, _⟩ => ⟨S131072x256, .f32⟩
  | .hbm, ⟨53, _⟩ => ⟨S131072, .f32⟩
  | .hbm, ⟨54, _⟩ => ⟨S131072x1, .f32⟩
  | .hbm, ⟨55, _⟩ => ⟨S131072, .f32⟩
  | .hbm, ⟨56, _⟩ => ⟨S131072x1, .f32⟩
  | .hbm, ⟨57, _⟩ => ⟨S131072, .f32⟩
  | .hbm, ⟨58, _⟩ => ⟨S131072x1, .f32⟩
  | .hbm, ⟨59, _⟩ => ⟨S512x256, .bf16⟩
  | .hbm, ⟨60, _⟩ => ⟨S512x256, .bf16⟩
  | .hbm, ⟨61, _⟩ => ⟨S131072x256, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x256, .bf16⟩
  | .local _ .vmem, ⟨5, _⟩ => ⟨S512x256, .bf16⟩
  | .local _ .vmem, ⟨6, _⟩ => ⟨S4096x1, .f32⟩
  | .local _ .vmem, ⟨7, _⟩ => ⟨S4096x1, .f32⟩
  | .local _ .vmem, ⟨8, _⟩ => ⟨S4096x1, .f32⟩
  | .local _ .vmem, ⟨9, _⟩ => ⟨S4096x1, .f32⟩
  | .local _ .vmem, ⟨10, _⟩ => ⟨S4096x256, .f32⟩
  | .local _ .vmem, ⟨11, _⟩ => ⟨S4096x256, .f32⟩
  | .local _ .vmem, ⟨12, _⟩ => ⟨S4096x1, .f32⟩
  | .local _ .vmem, ⟨13, _⟩ => ⟨S4096x1, .f32⟩
  | .local _ .vmem, ⟨14, _⟩ => ⟨S4096x256, .f32⟩
  | .local _ .vmem, ⟨15, _⟩ => ⟨S4096x256, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_v6 : Ref sig .tc := ⟨.hbm, 19, rfl⟩
abbrev main_call0_c_2 : Ref sig .tc := ⟨.hbm, 20, rfl⟩
abbrev main_call0_call1_v0 : Ref sig .tc := ⟨.hbm, 21, rfl⟩
abbrev main_call0_call1_v1 : Ref sig .tc := ⟨.hbm, 22, rfl⟩
abbrev main_call0_v7 : Ref sig .tc := ⟨.hbm, 23, rfl⟩
abbrev main_call0_c_3 : Ref sig .tc := ⟨.hbm, 24, rfl⟩
abbrev main_call0_v8 : Ref sig .tc := ⟨.hbm, 25, rfl⟩
abbrev main_call0_v9 : Ref sig .tc := ⟨.hbm, 26, rfl⟩
abbrev main_call0_c_4 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_c_5 : Ref sig .tc := ⟨.hbm, 34, rfl⟩
abbrev main_call0_v16 : Ref sig .tc := ⟨.hbm, 35, rfl⟩
abbrev main_call0_v17 : Ref sig .tc := ⟨.hbm, 36, rfl⟩
abbrev main_call0_c_6 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_c_7 : Ref sig .tc := ⟨.hbm, 44, rfl⟩
abbrev main_call0_v24 : Ref sig .tc := ⟨.hbm, 45, rfl⟩
abbrev main_call0_v25 : Ref sig .tc := ⟨.hbm, 46, rfl⟩
abbrev main_call0_c_8 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_v0 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x256 : S4096x1.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  gather_S100000x512_S131072x1_S131072x512_1_0_n_n_0_1_1512_wf : GatherDims.WF S100000x512 S131072x1 S131072x512 [1] [0] [] [0] [] 1 ![1, 512]
  gather_S262144x256_S131072x1_S131072x256_1_0_n_n_0_1_1256_wf : GatherDims.WF S262144x256 S131072x1 S131072x256 [1] [0] [] [0] [] 1 ![1, 256]
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .bf16 = 32 ∨ (Rect.block (s := S131072x512) S4096x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .bf16 = 32 ∨ (Rect.block (s := S131072x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S131072x1.size a
  hwx0_4 : ∀ i : grid0.Coords, EltTy.bits .f32 = 32 ∨ (Rect.block (s := S131072x1) S4096x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S131072x1.size a
  hwx0_5 : ∀ i : grid0.Coords, EltTy.bits .f32 = 32 ∨ (Rect.block (s := S131072x1) S4096x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S131072x256.size a
  hwx0_6 : ∀ i : grid0.Coords, EltTy.bits .f32 = 32 ∨ (Rect.block (s := S131072x256) S4096x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S131072x1.size a
  hwx0_7 : ∀ i : grid0.Coords, EltTy.bits .f32 = 32 ∨ (Rect.block (s := S131072x1) S4096x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S131072x256.size a
  hwx0_8 : ∀ i : grid0.Coords, EltTy.bits .f32 = 32 ∨ (Rect.block (s := S131072x256) S4096x256.size (cc0_transform_8 i) (hinb0_8 i)).WholeWords (EltTy.packing .f32)

variable [Facts₀]

def gather_S100000x512_S131072x1_S131072x512_1_0_n_n_0_1_1512 : GatherDims S100000x512 S131072x1 S131072x512 where
  offsetDims := [1]
  collapsedSliceDims := [0]
  operandBatchingDims := []
  startIndicesBatchingDims := []
  startIndexMap := [0]
  indexVectorDim := 1
  sliceSizes := ![1, 512]
  wf := gather_S100000x512_S131072x1_S131072x512_1_0_n_n_0_1_1512_wf
def gather_S262144x256_S131072x1_S131072x256_1_0_n_n_0_1_1256 : GatherDims S262144x256 S131072x1 S131072x256 where
  offsetDims := [1]
  collapsedSliceDims := [0]
  operandBatchingDims := []
  startIndicesBatchingDims := []
  startIndexMap := [0]
  indexVectorDim := 1
  sliceSizes := ![1, 256]
  wf := gather_S262144x256_S131072x1_S131072x256_1_0_n_n_0_1_1256_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_call0_v15) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v23) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v37) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v38) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v32) S4096x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v34) S4096x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v30) S4096x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v36) S4096x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4096x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072 : Shape := ⟨1, ![131072]⟩
abbrev S100000x512 : Shape := ⟨2, ![100000, 512]⟩
abbrev S512x256 : Shape := ⟨2, ![512, 256]⟩
abbrev S262144x256 : Shape := ⟨2, ![262144, 256]⟩
abbrev S_ : Shape := ⟨0, ![]⟩
abbrev S131072x1 : Shape := ⟨2, ![131072, 1]⟩
abbrev S131072x512 : Shape := ⟨2, ![131072, 512]⟩
abbrev S131072x256 : Shape := ⟨2, ![131072, 256]⟩

abbrev nBuf : Space → Nat
  | .hbm => 67
  | .vmem => 0
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S131072, .i32⟩
  | .hbm, ⟨3, _⟩ => ⟨S100000x512, .f32⟩
  | .hbm, ⟨4, _⟩ => ⟨S100000x512, .f32⟩
  | .hbm, ⟨5, _⟩ => ⟨S512x256, .f32⟩
  | .hbm, ⟨6, _⟩ => ⟨S512x256, .f32⟩
  | .hbm, ⟨7, _⟩ => ⟨S262144x256, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x512, .f32⟩
  | .hbm, ⟨27, _⟩ => ⟨S131072x256, .f32⟩
  | .hbm, ⟨28, _⟩ => ⟨S131072x1, .i1⟩
  | .hbm, ⟨29, _⟩ => ⟨S131072x1, .f32⟩
  | .hbm, ⟨30, _⟩ => ⟨S131072x256, .f32⟩
  | .hbm, ⟨31, _⟩ => ⟨S131072x256, .f32⟩
  | .hbm, ⟨32, _⟩ => ⟨S_, .i32⟩
  | .hbm, ⟨33, _⟩ => ⟨S_, .i32⟩
  | .hbm, ⟨34, _⟩ => ⟨S131072, .i32⟩
  | .hbm, ⟨35, _⟩ => ⟨S131072, .i32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x512, .f32⟩
  | .hbm, ⟨45, _⟩ => ⟨S131072x256, .f32⟩
  | .hbm, ⟨46, _⟩ => ⟨S131072x1, .i1⟩
  | .hbm, ⟨47, _⟩ => ⟨S131072x1, .f32⟩
  | .hbm, ⟨48, _⟩ => ⟨S131072x256, .f32⟩
  | .hbm, ⟨49, _⟩ => ⟨S131072x256, .f32⟩
  | .hbm, ⟨50, _⟩ => ⟨S131072, .i1⟩
  | .hbm, ⟨51, _⟩ => ⟨S131072, .i1⟩
  | .hbm, ⟨52, _⟩ => ⟨S_, .i32⟩
  | .hbm, ⟨53, _⟩ => ⟨S131072, .i32⟩
  | .hbm, ⟨54, _⟩ => ⟨S131072, .i1⟩
  | .hbm, ⟨55, _⟩ => ⟨S_, .i32⟩
  | .hbm, ⟨56, _⟩ => ⟨S131072, .i32⟩
  | .hbm, ⟨57, _⟩ => ⟨S131072, .i32⟩
  | .hbm, ⟨58, _⟩ => ⟨S131072, .i32⟩
  | .hbm, ⟨59, _⟩ => ⟨S131072x1, .i32⟩
  | .hbm, ⟨60, _⟩ => ⟨S131072x256, .f32⟩
  | .hbm, ⟨61, _⟩ => ⟨S131072x1, .i1⟩
  | .hbm, ⟨62, _⟩ => ⟨S131072x1, .f32⟩
  | .hbm, ⟨63, _⟩ => ⟨S131072x256, .f32⟩
  | .hbm, ⟨64, _⟩ => ⟨S131072x256, .f32⟩
  | .hbm, ⟨65, _⟩ => ⟨S131072x256, .f32⟩
  | .hbm, ⟨66, _⟩ => ⟨S131072x256, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  gather_S100000x512_S131072x1_S131072x512_1_0_n_n_0_1_1512_wf : GatherDims.WF S100000x512 S131072x1 S131072x512 [1] [0] [] [0] [] 1 ![1, 512]
  dot_S131072x512_S512x256_S131072x256_1_0_0_1_n_n_wf : DotDims.WF S131072x512 S512x256 S131072x256 [1] [0] [0] [1] [] []
  gather_S262144x256_S131072x1_S131072x256_1_0_n_n_0_1_1256_wf : GatherDims.WF S262144x256 S131072x1 S131072x256 [1] [0] [] [0] [] 1 ![1, 256]

variable [Facts₀]

def gather_S100000x512_S131072x1_S131072x512_1_0_n_n_0_1_1512 : GatherDims S100000x512 S131072x1 S131072x512 where
  offsetDims := [1]
  collapsedSliceDims := [0]
  operandBatchingDims := []
  startIndicesBatchingDims := []
  startIndexMap := [0]
  indexVectorDim := 1
  sliceSizes := ![1, 512]
  wf := gather_S100000x512_S131072x1_S131072x512_1_0_n_n_0_1_1512_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def gather_S262144x256_S131072x1_S131072x256_1_0_n_n_0_1_1256 : GatherDims S262144x256 S131072x1 S131072x256 where
  offsetDims := [1]
  collapsedSliceDims := [0]
  operandBatchingDims := []
  startIndicesBatchingDims := []
  startIndexMap := [0]
  indexVectorDim := 1
  sliceSizes := ![1, 256]
  wf := gather_S262144x256_S131072x1_S131072x256_1_0_n_n_0_1_1256_wf

class Facts : Prop extends Facts₀ where

variable [Facts]
-- ==== Proof.TypeDispatch.lean ====
/-
  A row-wise mix of two projected feature rows and an embedding row, as one function of arrays.

  Row `n` of the result is a weighted sum of three rows of width 256: row `n` of a first `[R, 512]` matrix pushed through
  a `[512, 256]` matrix, row `n` of a second `[R, 512]` matrix pushed through a second `[512, 256]` matrix, and row `n`
  of an `[R, 256]` matrix taken as it is. The three weights of the row are read from three `[R, 1]` columns:

      out (n, e) = (Σ_k A0 (n, k) · W0 (k, e)) · c0 (n, 0) + (Σ_k A1 (n, k) · W1 (k, e)) · c1 (n, 0) + E (n, e) · ce (n, 0).

  The sums and products are those of the extended reals, grouped exactly as written (the first two terms are added
  first); nothing is assumed finite and no term is moved.

  The entry depends on row `n` alone of the six row-indexed operands, and on column `e` of the two projections. So the
  same formula evaluated on a block of rows of those operands, at a local row `p`, is the formula on the whole operands
  at the row the block's row `p` came from (`mix_rows`): cutting the rows into blocks changes nothing.
-/
import Idealize.ShloMosaic.Lib.ValueIdx
import Idealize.ShloMosaic.PureOps.Ideal

noncomputable section

namespace Cert.TypeDispatch

open Idealize.ShloMosaic Idealize.ShloMosaic.ValueIdx

/-- The entry at row `n`, column `e`, of operands with `R` rows. -/
def mix {R : Nat} (A0 A1 : (⟨2, ![R, 512]⟩ : Shape).Idx → EReal) (W0 W1 : (⟨2, ![512, 256]⟩ : Shape).Idx → EReal)
    (E : (⟨2, ![R, 256]⟩ : Shape).Idx → EReal) (c0 c1 ce : (⟨2, ![R, 1]⟩ : Shape).Idx → EReal)
    (n : Fin R) (e : Fin 256) : EReal :=
  (∑ k : Fin 512, A0 (ix2 n k) * W0 (ix2 k e)) * c0 (ix2 n (0 : Fin 1))
    + (∑ k : Fin 512, A1 (ix2 n k) * W1 (ix2 k e)) * c1 (ix2 n (0 : Fin 1))
    + E (ix2 n e) * ce (ix2 n (0 : Fin 1))

/-- The entry computed on a block of rows is the entry on the whole operands, at the row the block's row came from:
    given that local row `p` of each row-indexed block operand is row `n` of the whole operand, and that the blocks'
    projections are the whole projections on column `q`. -/
theorem mix_rows {R B : Nat}
    (A0 A1 : (⟨2, ![R, 512]⟩ : Shape).Idx → EReal) (W0 W1 : (⟨2, ![512, 256]⟩ : Shape).Idx → EReal)
    (E : (⟨2, ![R, 256]⟩ : Shape).Idx → EReal) (c0 c1 ce : (⟨2, ![R, 1]⟩ : Shape).Idx → EReal)
    (a0 a1 : (⟨2, ![B, 512]⟩ : Shape).Idx → EReal) (w0 w1 : (⟨2, ![512, 256]⟩ : Shape).Idx → EReal)
    (e' : (⟨2, ![B, 256]⟩ : Shape).Idx → EReal) (d0 d1 de : (⟨2, ![B, 1]⟩ : Shape).Idx → EReal)
    (p : Fin B) (n : Fin R) (q : Fin 256)
    (h0 : ∀ k : Fin 512, a0 (ix2 p k) = A0 (ix2 n k)) (h1 : ∀ k : Fin 512, a1 (ix2 p k) = A1 (ix2 n k))
    (hw0 : ∀ k : Fin 512, w0 (ix2 k q) = W0 (ix2 k q)) (hw1 : ∀ k : Fin 512, w1 (ix2 k q) = W1 (ix2 k q))
    (he : e' (ix2 p q) = E (ix2 n q))
    (hd0 : d0 (ix2 p (0 : Fin 1)) = c0 (ix2 n (0 : Fin 1))) (hd1 : d1 (ix2 p (0 : Fin 1)) = c1 (ix2 n (0 : Fin 1)))
    (hde : de (ix2 p (0 : Fin 1)) = ce (ix2 n (0 : Fin 1))) :
    mix a0 a1 w0 w1 e' d0 d1 de p q = mix A0 A1 W0 W1 E c0 c1 ce n q := by
  have s0 : (∑ k : Fin 512, a0 (ix2 p k) * w0 (ix2 k q)) = ∑ k : Fin 512, A0 (ix2 n k) * W0 (ix2 k q) :=
    Finset.sum_congr rfl fun k _ => by rw [h0 k, hw0 k]
  have s1 : (∑ k : Fin 512, a1 (ix2 p k) * w1 (ix2 k q)) = ∑ k : Fin 512, A1 (ix2 n k) * W1 (ix2 k q) :=
    Finset.sum_congr rfl fun k _ => by rw [h1 k, hw1 k]
  unfold mix
  rw [s0, s1, he, hd0, hd1, hde]

/-- The whole result, over 131072 rows: one function of the eight arrays, index by index. -/
def out (A0 A1 : (⟨2, ![131072, 512]⟩ : Shape).Idx → EReal) (W0 W1 : (⟨2, ![512, 256]⟩ : Shape).Idx → EReal)
    (E : (⟨2, ![131072, 256]⟩ : Shape).Idx → EReal) (c0 c1 ce : (⟨2, ![131072, 1]⟩ : Shape).Idx → EReal) :
    (⟨2, ![131072, 256]⟩ : Shape).Idx → EReal :=
  fun i => mix (R := 131072) A0 A1 W0 W1 E c0 c1 ce (i 0) (i 1)

/-- Read at an index written by its coordinates, the result is the entry. -/
theorem out_apply (A0 A1 : (⟨2, ![131072, 512]⟩ : Shape).Idx → EReal) (W0 W1 : (⟨2, ![512, 256]⟩ : Shape).Idx → EReal)
    (E : (⟨2, ![131072, 256]⟩ : Shape).Idx → EReal) (c0 c1 ce : (⟨2, ![131072, 1]⟩ : Shape).Idx → EReal)
    (n : Fin 131072) (e : Fin 256) :
    out A0 A1 W0 W1 E c0 c1 ce (ix2 n e) = mix A0 A1 W0 W1 E c0 c1 ce n e := rfl

end Cert.TypeDispatch

end
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.BlockEntry.lean ====
/-
  One entry of the block the kernel body stores.

  At a grid point the body reads eight blocks — 4096 rows of each of the two gathered feature matrices, the two
  `[512, 256]` projections whole, 4096 rows of each of the three weight columns and of the gathered embedding rows — and
  stores one `[4096, 256]` block. Each row block is multiplied by its projection on the matrix unit into an accumulator
  of zeros; each product is scaled, row by row, by its weight column spread over the 256 columns; the embedding rows are
  scaled the same way by the third column; the first two terms are added, then the third.

  Read at row `p`, column `q`, this is `TypeDispatch.mix` of the eight blocks: a product into zeros is the plain sum over
  the 512 contracted positions, a `[4096, 1]` column spread over the columns reads the column at row `p`, a cast between
  equal shapes changes nothing, and the elementwise products and sums act entry by entry. On extended reals the change
  of float format of the matrix unit's operands is the identity, so nothing else is involved.
-/
import proofs.«113873_j34368328303102_1_alg».proof.Proof.Gen.KernelIdeal.Skeleton
import proofs.«113873_j34368328303102_1_alg».proof.Proof.TypeDispatch
import proofs.«113873_j34368328303102_1_alg».proof.Proof.LibMatmulPlain
import proofs.«113873_j34368328303102_1_alg».proof.Proof.LibKeepdims
import Idealize.ShloMosaic.Lib.Pipeline.Value

noncomputable section

namespace Cert.KernelIdeal.BlockEntry

open Cert.KernelIdeal Cert.KernelIdeal.Gen Idealize.ShloMosaic Idealize.ShloMosaic.ValueIdx

/-- A block of rows times a projection, into zeros, read at `(p, q)`: the sum over the 512 contracted positions. -/
theorem project_apply (x : FVec Ideal S4096x512 .bf16) (w : FVec Ideal S512x256 .bf16)
    (hx : S4096x512.ShapeCasts S4096x512) (hw : S512x256.ShapeCasts S512x256) (p : Fin 4096) (q : Fin 256) :
    matmul (F := Ideal) dot_S4096x512_S512x256_S4096x256_1_0_0_1_n_n none
        (shapeCast S4096x512 x hx) (shapeCast S512x256 w hw) (constant S4096x256 .f32 0x00000000#32) (ix2 p q)
      = ∑ k : Fin 512, x (ix2 p k) * w (ix2 k q) := by
  rw [shapeCast_self, shapeCast_self]
  exact Cert.Lib.MatmulPlain.matmul_zero_apply Gen.dot_S4096x512_S512x256_S4096x256_1_0_0_1_n_n_wf none x w p q

/-- A weight column spread over the 256 columns, read at `(p, q)`: the column at row `p`. -/
theorem spread_apply (v : FVec Ideal S4096x1 .f32) (hv : S4096x1.ShapeCasts S4096x1) (hb : S4096x1.Broadcasts S4096x256)
    (p : Fin 4096) (q : Fin 256) :
    broadcastTo S4096x256 (shapeCast S4096x1 v hv) hb (ix2 p q) = v (ix2 p (0 : Fin 1)) := by
  rw [shapeCast_self]
  exact Cert.Lib.Keepdims.broadcastTo_a1_ab_apply v hb p q

/-- THE STORED ENTRY: at `(p, q)` the body's block is the mix of the eight blocks it read. (The arguments are in
    the order the body loads them: first rows, first projection, second rows, second projection, the first two weight
    columns, the embedding rows, the third weight column.) -/
theorem pay_apply (x0 x1 : FVec Ideal S4096x512 .bf16) (w0 w1 : FVec Ideal S512x256 .bf16) (d0 d1 : FVec Ideal S4096x1 .f32)
    (e : FVec Ideal S4096x256 .f32) (de : FVec Ideal S4096x1 .f32) (p : Fin 4096) (q : Fin 256) :
    k0_pay1 (F := Ideal) x0 w0 x1 w1 d0 d1 e de (ix2 p q) = Cert.TypeDispatch.mix (R := 4096) x0 x1 w0 w1 e d0 d1 de p q := by
  unfold k0_pay1 Cert.TypeDispatch.mix
  dsimp only [addf_apply, mulf_apply]
  rw [project_apply x0 w0 _ _ p q, project_apply x1 w1 _ _ p q, spread_apply d0 _ _ p q, spread_apply d1 _ _ p q,
    spread_apply de _ _ p q, shapeCast_self]

end Cert.KernelIdeal.BlockEntry

end
-- ==== Proof.RowBlocks.lean ====
/-
  From the blocks to the whole array: what the kernel's run leaves in its result.

  The region walks 32 grid points. At point `t` seven of its nine windows — the two gathered feature matrices, the three
  weight columns, the gathered embedding rows and the result — hold rows `4096 t .. 4096 t + 4095` of their arrays, all
  columns; the two projections are held whole at every point (the index maps, decided over the grid: `block_at`). So entry
  `(p, ·)` of a row-blocked window at point `t` is row `4096 t + p` of its array (`emb_w`, `read_w`).

  What point `t` writes back is the body's stored block of the blocks it read (the generated frame), entry by entry the
  mix of those blocks (`BlockEntry.pay_apply`), hence — the mix depending on the row alone (`TypeDispatch.mix_rows`) —
  block `t` of ONE whole-array function: `TypeDispatch.out` of the eight arrays as the region finds them (`flushed_eq`).
  Row `r` of the result lies in the block of point `r / 4096`, so the 32 blocks cover the result (`cover`), and after the run
  the result array is that function (`final`, `run`).
-/
import proofs.«113873_j34368328303102_1_alg».proof.Proof.Gen.KernelIdeal.Value
import proofs.«113873_j34368328303102_1_alg».proof.Proof.BlockEntry

set_option maxRecDepth 16384

noncomputable section

namespace Cert.KernelIdeal.RowBlocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- THE INDEX MAPS, decided over the 32 grid points: a row-blocked window is at block row `t`, block column 0; a
    projection at block (0, 0). -/
theorem block_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of a block of grid point `t` is row `4096 t + p` of the array. -/
def rowOf (t : Fin cfg0.N) (p : Fin 4096) : Fin 131072 :=
  ⟨t.val * 4096 + p.val, by have h1 := t.isLt; have hN : cfg0.N = 32 := N_0; have h2 := p.isLt; omega⟩

/-! ## Where a block's entry sits in its array -/

/-- Entry `(p, k)` of window 0's block at point `t` sits at row `4096 t + p`, column `k`, of its array. -/
theorem emb0 (t : Fin cfg0.N) (p : Fin 4096) (k : Fin 512) :
    (((cfg0.win 0).blk t).view.emb (ix2 p k) : S131072x512.Idx) = ix2 (rowOf t p) k := by
  obtain ⟨e0, e1, -, -, -, -, -, -, -, -, -, -, -, -, -, -, -, -⟩ := block_at t
  funext a; apply Fin.ext
  match a with
  | ⟨0, _⟩ => show win0_0.index t (0 : Fin 2) * 4096 + 1 * p.val = t.val * 4096 + p.val; omega
  | ⟨1, _⟩ => show win0_0.index t (1 : Fin 2) * 512 + 1 * k.val = k.val; omega

/-- Entry `(p, k)` of window 1's block at point `t` sits at row `4096 t + p`, column `k`, of its array. -/
theorem emb1 (t : Fin cfg0.N) (p : Fin 4096) (k : Fin 512) :
    (((cfg0.win 1).blk t).view.emb (ix2 p k) : S131072x512.Idx) = ix2 (rowOf t p) k := by
  obtain ⟨-, -, e0, e1, -, -, -, -, -, -, -, -, -, -, -, -, -, -⟩ := block_at t
  funext a; apply Fin.ext
  match a with
  | ⟨0, _⟩ => show win0_1.index t (0 : Fin 2) * 4096 + 1 * p.val = t.val * 4096 + p.val; omega
  | ⟨1, _⟩ => show win0_1.index t (1 : Fin 2) * 512 + 1 * k.val = k.val; omega

/-- Window 2's block is its whole array at every point: entry `(k, q)` sits at `(k, q)`. -/
theorem emb2 (t : Fin cfg0.N) (k : Fin 512) (q : Fin 256) :
    (((cfg0.win 2).blk t).view.emb (ix2 k q) : S512x256.Idx) = ix2 k q := by
  obtain ⟨-, -, -, -, e0, e1, -, -, -, -, -, -, -, -, -, -, -, -⟩ := block_at t
  funext a; apply Fin.ext
  match a with
  | ⟨0, _⟩ => show win0_2.index t (0 : Fin 2) * 512 + 1 * k.val = k.val; omega
  | ⟨1, _⟩ => show win0_2.index t (1 : Fin 2) * 256 + 1 * q.val = q.val; omega

/-- Window 3's block is its whole array at every point: entry `(k, q)` sits at `(k, q)`. -/
theorem emb3 (t : Fin cfg0.N) (k : Fin 512) (q : Fin 256) :
    (((cfg0.win 3).blk t).view.emb (ix2 k q) : S512x256.Idx) = ix2 k q := by
  obtain ⟨-, -, -, -, -, -, e0, e1, -, -, -, -, -, -, -, -, -, -⟩ := block_at t
  funext a; apply Fin.ext
  match a with
  | ⟨0, _⟩ => show win0_3.index t (0 : Fin 2) * 512 + 1 * k.val = k.val; omega
  | ⟨1, _⟩ => show win0_3.index t (1 : Fin 2) * 256 + 1 * q.val = q.val; omega

/-- Entry `(p, 0)` of window 4's block at point `t` sits at row `4096 t + p` of its column. -/
theorem emb4 (t : Fin cfg0.N) (p : Fin 4096) :
    (((cfg0.win 4).blk t).view.emb (ix2 p (0 : Fin 1)) : S131072x1.Idx) = ix2 (rowOf t p) (0 : Fin 1) := by
  obtain ⟨-, -, -, -, -, -, -, -, e0, e1, -, -, -, -, -, -, -, -⟩ := block_at t
  funext a; apply Fin.ext
  match a with
  | ⟨0, _⟩ => show win0_4.index t (0 : Fin 2) * 4096 + 1 * p.val = t.val * 4096 + p.val; omega
  | ⟨1, _⟩ => show win0_4.index t (1 : Fin 2) * 1 + 1 * 0 = 0; omega

/-- Entry `(p, 0)` of window 5's block at point `t` sits at row `4096 t + p` of its column. -/
theorem emb5 (t : Fin cfg0.N) (p : Fin 4096) :
    (((cfg0.win 5).blk t).view.emb (ix2 p (0 : Fin 1)) : S131072x1.Idx) = ix2 (rowOf t p) (0 : Fin 1) := by
  obtain ⟨-, -, -, -, -, -, -, -, -, -, e0, e1, -, -, -, -, -, -⟩ := block_at t
  funext a; apply Fin.ext
  match a with
  | ⟨0, _⟩ => show win0_5.index t (0 : Fin 2) * 4096 + 1 * p.val = t.val * 4096 + p.val; omega
  | ⟨1, _⟩ => show win0_5.index t (1 : Fin 2) * 1 + 1 * 0 = 0; omega

/-- Entry `(p, q)` of window 6's block at point `t` sits at row `4096 t + p`, column `q`, of its array. -/
theorem emb6 (t : Fin cfg0.N) (p : Fin 4096) (q : Fin 256) :
    (((cfg0.win 6).blk t).view.emb (ix2 p q) : S131072x256.Idx) = ix2 (rowOf t p) q := by
  obtain ⟨-, -, -, -, -, -, -, -, -, -, -, -, e0, e1, -, -, -, -⟩ := block_at t
  funext a; apply Fin.ext
  match a with
  | ⟨0, _⟩ => show win0_6.index t (0 : Fin 2) * 4096 + 1 * p.val = t.val * 4096 + p.val; omega
  | ⟨1, _⟩ => show win0_6.index t (1 : Fin 2) * 256 + 1 * q.val = q.val; omega

/-- Entry `(p, 0)` of window 7's block at point `t` sits at row `4096 t + p` of its column. -/
theorem emb7 (t : Fin cfg0.N) (p : Fin 4096) :
    (((cfg0.win 7).blk t).view.emb (ix2 p (0 : Fin 1)) : S131072x1.Idx) = ix2 (rowOf t p) (0 : Fin 1) := by
  obtain ⟨-, -, -, -, -, -, -, -, -, -, -, -, -, -, e0, e1, -, -⟩ := block_at t
  funext a; apply Fin.ext
  match a with
  | ⟨0, _⟩ => show win0_7.index t (0 : Fin 2) * 4096 + 1 * p.val = t.val * 4096 + p.val; omega
  | ⟨1, _⟩ => show win0_7.index t (1 : Fin 2) * 1 + 1 * 0 = 0; omega

/-- Entry `(p, q)` of window 8's block at point `t` sits at row `4096 t + p`, column `q`, of its array. -/
theorem emb8 (t : Fin cfg0.N) (p : Fin 4096) (q : Fin 256) :
    (((cfg0.win 8).blk t).view.emb (ix2 p q) : S131072x256.Idx) = ix2 (rowOf t p) q := by
  obtain ⟨-, -, -, -, -, -, -, -, -, -, -, -, -, -, -, -, e0, e1⟩ := block_at t
  funext a; apply Fin.ext
  match a with
  | ⟨0, _⟩ => show win0_8.index t (0 : Fin 2) * 4096 + 1 * p.val = t.val * 4096 + p.val; omega
  | ⟨1, _⟩ => show win0_8.index t (1 : Fin 2) * 256 + 1 * q.val = q.val; omega

/-! ## The blocks the body reads, entry by entry -/

/-- Window 0's block at point `t`, read at `(p, k)`, is its array at row `4096 t + p`. -/
theorem read0 (c : Dev nD) (t : Fin cfg0.N) (p : Fin 4096) (k : Fin 512) :
    iblk m c 0 t (ix2 p k) = (V m c main_call0_v15 : S131072x512.Idx → EReal) (ix2 (rowOf t p) k) := by
  show (V m c main_call0_v15 : S131072x512.Idx → EReal) (((cfg0.win 0).blk t).view.emb (ix2 p k)) = _
  rw [emb0 t p k]

/-- Window 1's block at point `t`, read at `(p, k)`, is its array at row `4096 t + p`. -/
theorem read1 (c : Dev nD) (t : Fin cfg0.N) (p : Fin 4096) (k : Fin 512) :
    iblk m c 1 t (ix2 p k) = (V m c main_call0_v23 : S131072x512.Idx → EReal) (ix2 (rowOf t p) k) := by
  show (V m c main_call0_v23 : S131072x512.Idx → EReal) (((cfg0.win 1).blk t).view.emb (ix2 p k)) = _
  rw [emb1 t p k]

/-- Window 2's block at any point is its array. -/
theorem read2 (c : Dev nD) (t : Fin cfg0.N) (k : Fin 512) (q : Fin 256) :
    iblk m c 2 t (ix2 k q) = (V m c main_call0_v37 : S512x256.Idx → EReal) (ix2 k q) := by
  show (V m c main_call0_v37 : S512x256.Idx → EReal) (((cfg0.win 2).blk t).view.emb (ix2 k q)) = _
  rw [emb2 t k q]

/-- Window 3's block at any point is its array. -/
theorem read3 (c : Dev nD) (t : Fin cfg0.N) (k : Fin 512) (q : Fin 256) :
    iblk m c 3 t (ix2 k q) = (V m c main_call0_v38 : S512x256.Idx → EReal) (ix2 k q) := by
  show (V m c main_call0_v38 : S512x256.Idx → EReal) (((cfg0.win 3).blk t).view.emb (ix2 k q)) = _
  rw [emb3 t k q]

/-- Window 4's block at point `t`, read at row `p`, is its column at row `4096 t + p`. -/
theorem read4 (c : Dev nD) (t : Fin cfg0.N) (p : Fin 4096) :
    iblk m c 4 t (ix2 p (0 : Fin 1)) = (V m c main_call0_v32 : S131072x1.Idx → EReal) (ix2 (rowOf t p) (0 : Fin 1)) := by
  show (V m c main_call0_v32 : S131072x1.Idx → EReal) (((cfg0.win 4).blk t).view.emb (ix2 p (0 : Fin 1))) = _
  rw [emb4 t p]

/-- Window 5's block at point `t`, read at row `p`, is its column at row `4096 t + p`. -/
theorem read5 (c : Dev nD) (t : Fin cfg0.N) (p : Fin 4096) :
    iblk m c 5 t (ix2 p (0 : Fin 1)) = (V m c main_call0_v34 : S131072x1.Idx → EReal) (ix2 (rowOf t p) (0 : Fin 1)) := by
  show (V m c main_call0_v34 : S131072x1.Idx → EReal) (((cfg0.win 5).blk t).view.emb (ix2 p (0 : Fin 1))) = _
  rw [emb5 t p]

/-- Window 6's block at point `t`, read at `(p, q)`, is its array at row `4096 t + p`. -/
theorem read6 (c : Dev nD) (t : Fin cfg0.N) (p : Fin 4096) (q : Fin 256) :
    iblk m c 6 t (ix2 p q) = (V m c main_call0_v30 : S131072x256.Idx → EReal) (ix2 (rowOf t p) q) := by
  show (V m c main_call0_v30 : S131072x256.Idx → EReal) (((cfg0.win 6).blk t).view.emb (ix2 p q)) = _
  rw [emb6 t p q]

/-- Window 7's block at point `t`, read at row `p`, is its column at row `4096 t + p`. -/
theorem read7 (c : Dev nD) (t : Fin cfg0.N) (p : Fin 4096) :
    iblk m c 7 t (ix2 p (0 : Fin 1)) = (V m c main_call0_v36 : S131072x1.Idx → EReal) (ix2 (rowOf t p) (0 : Fin 1)) := by
  show (V m c main_call0_v36 : S131072x1.Idx → EReal) (((cfg0.win 7).blk t).view.emb (ix2 p (0 : Fin 1))) = _
  rw [emb7 t p]

/-! ## The result as one function of the arrays the region finds -/

/-- The mix of the eight arrays as the region finds them, over all 131072 rows. -/
def G (c : Dev nD) : S131072x256.Idx → EReal :=
  Cert.TypeDispatch.out (V m c main_call0_v15) (V m c main_call0_v23) (V m c main_call0_v37) (V m c main_call0_v38)
    (V m c main_call0_v30) (V m c main_call0_v32) (V m c main_call0_v34) (V m c main_call0_v36)

/-- WHAT POINT `t` WRITES BACK is block `t` of `G`. -/
theorem flushed_eq (c : Dev nD) (t : Fin cfg0.N) :
    (dats m 0 c).flushed 8 t = ((cfg0.win 8).blk t).view.read (Elt Ideal) (G m c) := by
  rw [Cert.KernelIdeal.Value.flushed8]
  unfold out0_8
  rw [View.canon_unit_zero origin]
  simp only [View.ld_unit_zero (S := S4096x512) origin, View.ld_unit_zero (S := S512x256) origin,
    View.ld_unit_zero (S := S4096x1) origin, View.ld_unit_zero (S := S4096x256) origin]
  funext (j : S4096x256.Idx)
  obtain ⟨p, q, rfl⟩ : ∃ (p : Fin 4096) (q : Fin 256), j = ix2 p q := ⟨j 0, j 1, eq_ix2 j⟩
  show k0_pay1 (F := Ideal) (iblk m c 0 t) (iblk m c 2 t) (iblk m c 1 t) (iblk m c 3 t) (iblk m c 4 t) (iblk m c 5 t)
      (iblk m c 6 t) (iblk m c 7 t) (ix2 p q) = G m c (((cfg0.win 8).blk t).view.emb (ix2 p q))
  rw [emb8 t p q]
  unfold G
  rw [Cert.TypeDispatch.out_apply]
  refine (Cert.KernelIdeal.BlockEntry.pay_apply (iblk m c 0 t) (iblk m c 1 t) (iblk m c 2 t) (iblk m c 3 t) (iblk m c 4 t)
    (iblk m c 5 t) (iblk m c 6 t) (iblk m c 7 t) p q).trans ?_
  exact Cert.TypeDispatch.mix_rows _ _ _ _ _ _ _ _ _ _ _ _ _ _ _ _ p (rowOf t p) q
    (read0 m c t p) (read1 m c t p) (fun k => read2 m c t k q) (fun k => read3 m c t k q) (read6 m c t p q)
    (read4 m c t p) (read5 m c t p) (read7 m c t p)

/-! ## The cover -/

/-- An index of the result is in point `t`'s block iff each coordinate is in the block's range on its axis. -/
theorem mem_blk (t : Fin cfg0.N) (i : S131072x256.Idx) :
    i ∈ ((cfg0.win 8).blk t).view.set ↔ ∀ a : Fin 2, win0_8.index t a * S4096x256.size a ≤ (i a).val ∧ (i a).val < win0_8.index t a * S4096x256.size a + S4096x256.size a := by
  show i ∈ ((View.whole main_v0).slice (win0_8.rect t)).set ↔ _
  rw [View.set_slice_whole, Rect.mem_set_unit]
  exact Iff.rfl

/-- Every index of the result is in the block of the point its row falls in. -/
theorem cover (i : S131072x256.Idx) : ∃ t : Fin cfg0.N, (cfg0.win 8).flush t = true ∧ i ∈ ((cfg0.win 8).blk t).view.set := by
  have hi0 : (i 0).val < 131072 := (i 0).isLt
  have hi1 : (i 1).val < 256 := (i 1).isLt
  have hN : cfg0.N = 32 := N_0
  have ht : (i 0).val / 4096 < cfg0.N := by omega
  obtain ⟨-, -, -, -, -, -, -, -, -, -, -, -, -, -, -, -, e0, e1⟩ := block_at ⟨(i 0).val / 4096, ht⟩
  refine ⟨⟨(i 0).val / 4096, ht⟩, flush0_8 _, ?_⟩
  rw [mem_blk]
  intro a
  match a with
  | ⟨0, _⟩ =>
    show win0_8.index ⟨(i 0).val / 4096, ht⟩ (0 : Fin 2) * 4096 ≤ (i 0).val ∧ (i 0).val < win0_8.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_8.index ⟨(i 0).val / 4096, ht⟩ (1 : Fin 2) * 256 ≤ (i 1).val ∧ (i 1).val < win0_8.index ⟨(i 0).val / 4096, ht⟩ (1 : Fin 2) * 256 + 256
    rw [e1]; omega

/-! ## The array after the run, and the run -/

/-- THE RESULT ARRAY after the run is `G`. -/
theorem final (c : Dev nD) : (dats m 0 c).arrAt 8 cfg0.N = G m c :=
  (dats m 0 c).arrAt_eq_of_cover 8 (G m c) (fun t _ => flushed_eq m c t) (fun i => cover i)

/-- The kernel's run: it terminates, its result is `G`, its arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.RowBlocks

end
-- ==== Proof.EntryArrays.lean ====
/-
  What the kernel's region finds in the eight arrays it reads, in the reference's own words.

  Before its one region the kernel program runs a line of host operations on the arguments: it compares the node types
  with 0 and with 1, keeps the type index where the comparison holds and 0 elsewhere, brings a negative index into range
  by adding the table's height, gathers the rows of the two feature tables and of the embedding table at those indices,
  narrows the two gathered feature matrices and the two projections to a shorter float format, and writes the three
  comparisons (the third is "neither") as columns of zeros and ones. The reference program runs the same operations on the
  same arguments, one for one, up to two differences that vanish on extended reals: it does not narrow anything (a change
  of float format is the identity there), and it lays a comparison out as a column BEFORE turning it into a number, where
  the kernel program does it after (both are the number of the comparison at the row).

  So each array the region reads IS the reference's value at the matching stage, as a whole array: no row of a
  gather is ever looked up, the shared chain of operations stays closed.
-/
import proofs.«113873_j34368328303102_1_alg».proof.Proof.Gen.KernelIdeal.Frame
import proofs.«113873_j34368328303102_1_alg».proof.Proof.Gen.ReferenceIdeal.Read
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem Idealize.ShloMosaic.StableHlo
open Cert.ReferenceIdeal.Read (val_main_v11 val_main_v24 val_main_v38 val_main_v14 val_main_v27 val_main_v40)

variable (m : (ℓ : Loc nD τ sig) → Buf (Elt Ideal) ℓ)

set_option maxRecDepth 8192 in
set_option maxHeartbeats 2000000 in
/-- The rows gathered from the first feature table (narrowed): the reference's first gather. -/
theorem rows0 (c : Dev nD) : (V m c main_call0_v15 : S131072x512.Idx → EReal)
    = val_main_v11 (F := Ideal) (m ((c : Thread nD τ).loc main_arg1)) (m ((c : Thread nD τ).loc main_arg2)) (m ((c : Thread nD τ).loc main_arg3)) := by
  dsimp only [Gen.V, Gen.hostOps0]
  after_results_simp
  rfl

set_option maxRecDepth 8192 in
set_option maxHeartbeats 2000000 in
/-- The rows gathered from the second feature table (narrowed): the reference's second gather. -/
theorem rows1 (c : Dev nD) : (V m c main_call0_v23 : S131072x512.Idx → EReal)
    = val_main_v24 (F := Ideal) (m ((c : Thread nD τ).loc main_arg1)) (m ((c : Thread nD τ).loc main_arg2)) (m ((c : Thread nD τ).loc main_arg4)) := by
  dsimp only [Gen.V, Gen.hostOps0]
  after_results_simp
  rfl

set_option maxRecDepth 8192 in
set_option maxHeartbeats 2000000 in
/-- The first projection, narrowed: the argument itself. -/
theorem proj0 (c : Dev nD) : (V m c main_call0_v37 : S512x256.Idx → EReal) = (m ((c : Thread nD τ).loc main_arg5)) := by
  dsimp only [Gen.V, Gen.hostOps0]
  after_results_simp
  rfl

set_option maxRecDepth 8192 in
set_option maxHeartbeats 2000000 in
/-- The second projection, narrowed: the argument itself. -/
theorem proj1 (c : Dev nD) : (V m c main_call0_v38 : S512x256.Idx → EReal) = (m ((c : Thread nD τ).loc main_arg6)) := by
  dsimp only [Gen.V, Gen.hostOps0]
  after_results_simp
  rfl

set_option maxRecDepth 8192 in
set_option maxHeartbeats 2000000 in
/-- The rows gathered from the embedding table: the reference's third gather. -/
theorem embRows (c : Dev nD) : (V m c main_call0_v30 : S131072x256.Idx → EReal)
    = val_main_v38 (F := Ideal) (m ((c : Thread nD τ).loc main_arg0)) (m ((c : Thread nD τ).loc main_arg7)) := by
  dsimp only [Gen.V, Gen.hostOps0]
  after_results_simp
  rfl

set_option maxRecDepth 8192 in
set_option maxHeartbeats 2000000 in
/-- The column "type is 0": the reference's first weight column. -/
theorem col0 (c : Dev nD) : (V m c main_call0_v32 : S131072x1.Idx → EReal)
    = val_main_v14 (F := Ideal) (m ((c : Thread nD τ).loc main_arg1)) := by
  dsimp only [Gen.V, Gen.hostOps0]
  after_results_simp
  rfl

set_option maxRecDepth 8192 in
set_option maxHeartbeats 2000000 in
/-- The column "type is 1": the reference's second weight column. -/
theorem col1 (c : Dev nD) : (V m c main_call0_v34 : S131072x1.Idx → EReal)
    = val_main_v27 (F := Ideal) (m ((c : Thread nD τ).loc main_arg1)) := by
  dsimp only [Gen.V, Gen.hostOps0]
  after_results_simp
  rfl

set_option maxRecDepth 8192 in
set_option maxHeartbeats 2000000 in
/-- The column "type is neither 0 nor 1": the reference's third weight column. -/
theorem colE (c : Dev nD) : (V m c main_call0_v36 : S131072x1.Idx → EReal)
    = val_main_v40 (F := Ideal) (m ((c : Thread nD τ).loc main_arg1)) := by
  dsimp only [Gen.V, Gen.hostOps0]
  after_results_simp
  rfl

end Cert.KernelIdeal.EntryArrays

end
-- ==== Proof.ReferenceValue.lean ====
/-
  The reference's result is the mix of its own stages.

  The reference gathers the rows of the two feature tables, multiplies each gathered matrix by its projection with the
  host's general dot product, scales each product by the matching comparison column spread over the 256 columns, does the
  same with the gathered embedding rows and the third column, and adds the three, the first two first. Read at row `n`,
  column `e`: a general dot product contracting the columns of the left operand with the rows of the right is the sum
  over the 512 contracted positions; a column spread over the columns reads the column at row `n`; products and sums act
  entry by entry. That is `TypeDispatch.out` of the reference's two gathered matrices, the two projections, the gathered
  embedding rows and the three columns — the gathers and the comparisons themselves are never opened.
-/
import proofs.«113873_j34368328303102_1_alg».proof.Proof.Gen.ReferenceIdeal.Read
import proofs.«113873_j34368328303102_1_alg».proof.Proof.TypeDispatch

noncomputable section

namespace Cert.ReferenceIdeal.RefValue

open Cert.ReferenceIdeal Cert.ReferenceIdeal.Gen Cert.ReferenceIdeal.Read Idealize.ShloMosaic Idealize.ShloMosaic.ValueIdx

/-- The left operand of either dot product is read at row `n`, the contracted position. -/
theorem lidx12 (n : Fin 131072) (e : Fin 256) (k : Fin 512) : lidx_main_v12 (ix2 n e) k = ix2 n k :=
  funext fun a => Fin.ext (by match a with | ⟨0, _⟩ => rfl | ⟨1, _⟩ => rfl)
/-- The right operand is read at the contracted position, column `e`. -/
theorem ridx12 (n : Fin 131072) (e : Fin 256) (k : Fin 512) : ridx_main_v12 (ix2 n e) k = ix2 k e :=
  funext fun a => Fin.ext (by match a with | ⟨0, _⟩ => rfl | ⟨1, _⟩ => rfl)
theorem lidx25 (n : Fin 131072) (e : Fin 256) (k : Fin 512) : lidx_main_v25 (ix2 n e) k = ix2 n k :=
  funext fun a => Fin.ext (by match a with | ⟨0, _⟩ => rfl | ⟨1, _⟩ => rfl)
theorem ridx25 (n : Fin 131072) (e : Fin 256) (k : Fin 512) : ridx_main_v25 (ix2 n e) k = ix2 k e :=
  funext fun a => Fin.ext (by match a with | ⟨0, _⟩ => rfl | ⟨1, _⟩ => rfl)
/-- A column spread over the columns is read at row `n` of the column. -/
theorem idx15 (n : Fin 131072) (e : Fin 256) : idx_main_v15 (ix2 n e) = ix2 n (0 : Fin 1) :=
  funext fun a => Fin.ext (by match a with | ⟨0, _⟩ => rfl | ⟨1, _⟩ => rfl)
theorem idx28 (n : Fin 131072) (e : Fin 256) : idx_main_v28 (ix2 n e) = ix2 n (0 : Fin 1) :=
  funext fun a => Fin.ext (by match a with | ⟨0, _⟩ => rfl | ⟨1, _⟩ => rfl)
theorem idx41 (n : Fin 131072) (e : Fin 256) : idx_main_v41 (ix2 n e) = ix2 n (0 : Fin 1) :=
  funext fun a => Fin.ext (by match a with | ⟨0, _⟩ => rfl | ⟨1, _⟩ => rfl)

/-- THE REFERENCE'S RESULT, as a whole array, is the mix of its gathered matrices, the projections, its gathered
    embedding rows and its three comparison columns. -/
theorem result_eq (x0 x1 x2 : (⟨S131072, .i32⟩ : BufTy).Contents (Elt Ideal)) (x3 x4 : (⟨S100000x512, .f32⟩ : BufTy).Contents (Elt Ideal))
    (x5 x6 : (⟨S512x256, .f32⟩ : BufTy).Contents (Elt Ideal)) (x7 : (⟨S262144x256, .f32⟩ : BufTy).Contents (Elt Ideal)) :
    val_main_v44 (F := Ideal) x0 x1 x2 x3 x4 x5 x6 x7
      = Cert.TypeDispatch.out (val_main_v11 (F := Ideal) x1 x2 x3) (val_main_v24 (F := Ideal) x1 x2 x4) x5 x6
          (val_main_v38 (F := Ideal) x0 x7) (val_main_v14 (F := Ideal) x1) (val_main_v27 (F := Ideal) x1) (val_main_v40 (F := Ideal) x1) := by
  funext i
  obtain ⟨n, e, rfl⟩ : ∃ (n : Fin 131072) (e : Fin 256), i = ix2 n e := ⟨i 0, i 1, eq_ix2 i⟩
  rw [Cert.TypeDispatch.out_apply, val_main_v44_apply, val_main_v43_apply, val_main_v16_apply, val_main_v29_apply,
    val_main_v42_apply, val_main_v12_apply, val_main_v25_apply, val_main_v15_apply, val_main_v28_apply, val_main_v41_apply]
  simp only [lidx12, ridx12, lidx25, ridx25, idx15, idx28, idx41]
  rfl

end Cert.ReferenceIdeal.RefValue

end
-- ==== Proof.lean ====
/-
  A per-row choice between two projected feature rows and an embedding row: the kernel against its reference, on
  extended reals.

  Both programs take, for each of 131072 nodes, a node id, a node type and a type index, two feature tables of 100000
  rows of width 512 with a `[512, 256]` projection each, and an embedding table of 262144 rows of width 256. Both compare
  the type with 0 and with 1, look up one row of each feature table (at the type index where the comparison holds, at
  row 0 elsewhere) and one row of the embedding table (at the node id), and return, for node `n` and column `e`,

      (Σ_k F0 (n, k) · W0 (k, e)) · [type n = 0] + (Σ_k F1 (n, k) · W1 (k, e)) · [type n = 1] + Emb (n, e) · [type n ∉ {0, 1}]

  where `F0`, `F1`, `Emb` are the looked-up rows and a bracket is the number 1 or 0 of the comparison; the first two terms are
  added first. This is `TypeDispatch.out` of those eight arrays.

  The reference computes it with two whole dot products and whole-array products and sums (`ReferenceValue`). The kernel
  program does the comparisons and the look-ups with the same host operations, then computes the formula in a region of
  32 grid points, 4096 rows at a time, on the matrix unit and the vector unit (`BlockEntry`, `RowBlocks`), from arrays that are,
  one for one, the reference's own intermediate values (`EntryArrays`). The two differ in the float format the products
  are fed in, in the tiling, and in whether a comparison is laid out as a column before or after it is turned into a
  number: on extended reals none of these changes a value, and no law of arithmetic beyond reading each operation at an
  index is used — the two sides are the same expression, term for term. In particular nothing needs the inputs finite:
  the precondition is never opened.

  The three frames are the generated frame runs (the reference's is its generated run with the result dropped); the
  idealized kernel is the kernel's own text read on extended reals, so there is nothing to preserve.
-/
import proofs.«113873_j34368328303102_1_alg».proof.Defs
import proofs.«113873_j34368328303102_1_alg».proof.Proof.Gen.Kernel
import proofs.«113873_j34368328303102_1_alg».proof.Proof.Gen.Kernel.Skeleton
import proofs.«113873_j34368328303102_1_alg».proof.Proof.Gen.Kernel.Launch
import proofs.«113873_j34368328303102_1_alg».proof.Proof.Gen.Kernel.Points
import proofs.«113873_j34368328303102_1_alg».proof.Proof.Gen.Kernel.Frame
import proofs.«113873_j34368328303102_1_alg».proof.Proof.Gen.KernelIdeal
import proofs.«113873_j34368328303102_1_alg».proof.Proof.Gen.KernelIdeal.Skeleton
import proofs.«113873_j34368328303102_1_alg».proof.Proof.Gen.KernelIdeal.Launch
import proofs.«113873_j34368328303102_1_alg».proof.Proof.Gen.KernelIdeal.Points
import proofs.«113873_j34368328303102_1_alg».proof.Proof.Gen.KernelIdeal.Frame
import proofs.«113873_j34368328303102_1_alg».proof.Proof.Gen.ReferenceIdeal
import proofs.«113873_j34368328303102_1_alg».proof.Proof.Gen.Pre_finite_inputs
import proofs.«113873_j34368328303102_1_alg».proof.Proof.Gen.KernelIdeal.Value
import proofs.«113873_j34368328303102_1_alg».proof.Proof.Gen.ReferenceIdeal.Run
import proofs.«113873_j34368328303102_1_alg».proof.Proof.Gen.ReferenceIdeal.Read
import proofs.«113873_j34368328303102_1_alg».proof.Proof.RowBlocks
import proofs.«113873_j34368328303102_1_alg».proof.Proof.EntryArrays
import proofs.«113873_j34368328303102_1_alg».proof.Proof.ReferenceValue
import Idealize.ShloMosaic.Adequacy
import Idealize.ShloMosaic.Init

noncomputable section

namespace Cert.Proof

open Idealize.ShloMosaic Idealize.ShloMosaic.TcCoe Idealize.SL.Sem
open Cert.ReferenceIdeal.Read (val_main_v11 val_main_v24 val_main_v38 val_main_v14 val_main_v27 val_main_v40)

/-! ## The frames, and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten to idealize the kernel. -/
theorem preserves : Cert.preserves_Kernel_KernelIdeal := trivial

/-! ## The values -/

/-- The kernel's result in the reference's words: the arrays its region reads are the reference's stages. -/
theorem kernel_result (m : (ℓ : Loc Cert.KernelIdeal.nD Cert.KernelIdeal.τ Cert.KernelIdeal.sig) → Buf (Elt Ideal) ℓ)
    (c : Dev Cert.KernelIdeal.nD) :
    Cert.KernelIdeal.RowBlocks.G m c
      = Cert.TypeDispatch.out
          (val_main_v11 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)))
          (val_main_v24 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)))
          (m ((c : Thread Cert.KernelIdeal.nD Cert.KernelIdeal.τ).loc Cert.KernelIdeal.main_arg5)) (m ((c : Thread Cert.KernelIdeal.nD Cert.KernelIdeal.τ).loc Cert.KernelIdeal.main_arg6))
          (val_main_v38 (F := Ideal) (m ((c : Thread Cert.KernelIdeal.nD Cert.KernelIdeal.τ).loc Cert.KernelIdeal.main_arg0)) (m ((c : Thread Cert.KernelIdeal.nD Cert.KernelIdeal.τ).loc Cert.KernelIdeal.main_arg7)))
          (val_main_v14 (F := Ideal) (m ((c : Thread Cert.KernelIdeal.nD Cert.KernelIdeal.τ).loc Cert.KernelIdeal.main_arg1))) (val_main_v27 (F := Ideal) (m ((c : Thread Cert.KernelIdeal.nD Cert.KernelIdeal.τ).loc Cert.KernelIdeal.main_arg1)))
          (val_main_v40 (F := Ideal) (m ((c : Thread Cert.KernelIdeal.nD Cert.KernelIdeal.τ).loc Cert.KernelIdeal.main_arg1))) := by
  unfold Cert.KernelIdeal.RowBlocks.G
  rw [Cert.KernelIdeal.EntryArrays.rows0, Cert.KernelIdeal.EntryArrays.rows1, Cert.KernelIdeal.EntryArrays.proj0,
    Cert.KernelIdeal.EntryArrays.proj1, Cert.KernelIdeal.EntryArrays.embRows, Cert.KernelIdeal.EntryArrays.col0,
    Cert.KernelIdeal.EntryArrays.col1, Cert.KernelIdeal.EntryArrays.colE]

/-- From memories that agree on the arguments both programs end with the same array: the mix of the same eight
    arrays. -/
theorem algebraic : Cert.algebraic_KernelIdeal_ReferenceIdeal := by
  intro m ρ m' ρ' _ hagree
  refine ⟨fun c => Cert.KernelIdeal.RowBlocks.G m c, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.RowBlocks.G m c
  rw [kernel_result m c, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.ReferenceIdeal.Read.val_main_v44_eq (F := Ideal) _ _ _ _ _ _ _ _).trans
    (Cert.ReferenceIdeal.RefValue.result_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
